-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x512x1024 : Shape := ⟨3, ![32, 512, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x512x1024 : S_.BroadcastsInDim S32x512x1024 (![] : Fin 0 → Fin S32x512x1024.rank)
  reducesTo_S32x512x1024_S_d0_1_2 : S32x512x1024.ReducesTo [0, 1, 2] S_

variable [Facts]

def fn {F : FTy → Type} [FloatOps F] (main_arg0 : FVec F S32x1024x1024 .f32) (main_arg1 : FVec F S32x512x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  main_v8
-- ==== Kernel.lean ====
abbrev S32x1024x1024 : Shape := ⟨3, ![32, 1024, 1024]⟩
abbrev S32x512x1024 : Shape := ⟨3, ![32, 512, 1024]⟩
abbrev S32x1024x64 : Shape := ⟨3, ![32, 1024, 64]⟩
abbrev S1x1024x1024 : Shape := ⟨3, ![1, 1024, 1024]⟩
abbrev S1x512x1024 : Shape := ⟨3, ![1, 512, 1024]⟩
abbrev S1x1024x64 : Shape := ⟨3, ![1, 1024, 64]⟩
abbrev S1024x1024 : Shape := ⟨2, ![1024, 1024]⟩
abbrev S512x1024 : Shape := ⟨2, ![512, 1024]⟩
abbrev S64x8x1024 : Shape := ⟨3, ![64, 8, 1024]⟩
abbrev S64x1024 : Shape := ⟨2, ![64, 1024]⟩
abbrev S1024x64 : Shape := ⟨2, ![1024, 64]⟩
abbrev S1024 : Shape := ⟨1, ![1024]⟩
abbrev S1024x1 : Shape := ⟨2, ![1024, 1]⟩
abbrev S64 : Shape := ⟨1, ![64]⟩
abbrev S64x1 : Shape := ⟨2, ![64, 1]⟩
abbrev S1x64 : Shape := ⟨2, ![1, 64]⟩

abbrev nBuf : Space → Nat
  | .hbm => 3
  | .vmem => 6
  | .smem => 0
  | _ => 0

abbrev bufTy : (tb : Table) → Fin (tcTables nBuf tb) → BufTy
  | .hbm, ⟨0, _⟩ => ⟨S32x1024x1024, .f32⟩
  | .hbm, ⟨1, _⟩ => ⟨S32x512x1024, .f32⟩
  | .hbm, ⟨2, _⟩ => ⟨S32x1024x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024x64, .f32⟩
  | .local _ .vmem, ⟨5, _⟩ => ⟨S1x1024x64, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S64x8x1024 : S512x1024.ShapeCasts S64x8x1024
  reduces_S64x8x1024_S64x1024 : S64x8x1024.Reduces [1] S64x1024
  bitsLt_bf16_f32 : FTy.bits .bf16 < FTy.bits .f32
  reduces_S1024x1024_S1024 : S1024x1024.Reduces [1] S1024
  shapeCasts_S1024_S1024x1 : S1024.ShapeCasts S1024x1
  reduces_S64x1024_S64 : S64x1024.Reduces [1] S64
  shapeCasts_S64_S64x1 : S64.ShapeCasts S64x1
  transposes_S64x1_p1_0_S1x64 : S64x1.Transposes [1, 0] S1x64
  broadcasts_S1024x1_S1024x64 : S1024x1.Broadcasts S1024x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x1024_S64x1024_S1024x64_1_1_0_0_n_n_wf : DotDims.WF S1024x1024 S64x1024 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x512x1024.size a
  hwx0_1 : ∀ i : grid0.Coords, EltTy.bits .f32 = 32 ∨ (Rect.block (s := S32x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x1024x64.size a
  hwx0_2 : ∀ i : grid0.Coords, EltTy.bits .f32 = 32 ∨ (Rect.block (s := S32x1024x64) S1x1024x64.size (cc0_transform_2 i) (hinb0_2 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x512x1024 : Shape := ⟨3, ![32, 512, 1024]⟩
abbrev S32x64x8x1024 : Shape := ⟨4, ![32, 64, 8, 1024]⟩
abbrev S_ : Shape := ⟨0, ![]⟩
abbrev S32x64x1024 : Shape := ⟨3, ![32, 64, 1024]⟩
abbrev S32x1024 : Shape := ⟨2, ![32, 1024]⟩
abbrev S32x1024x1 : Shape := ⟨3, ![32, 1024, 1]⟩
abbrev S32x64 : Shape := ⟨2, ![32, 64]⟩
abbrev S32x1x64 : Shape := ⟨3, ![32, 1, 64]⟩
abbrev S32x1024x64 : Shape := ⟨3, ![32, 1024, 64]⟩

abbrev nBuf : Space → Nat
  | .hbm => 25
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x512x1024, .f32⟩
  | .hbm, ⟨2, _⟩ => ⟨S32x64x8x1024, .f32⟩
  | .hbm, ⟨3, _⟩ => ⟨S_, .f32⟩
  | .hbm, ⟨4, _⟩ => ⟨S32x64x1024, .f32⟩
  | .hbm, ⟨5, _⟩ => ⟨S_, .f32⟩
  | .hbm, ⟨6, _⟩ => ⟨S32x64x1024, .f32⟩
  | .hbm, ⟨7, _⟩ => ⟨S32x64x1024, .f32⟩
  | .hbm, ⟨8, _⟩ => ⟨S32x1024x1024, .f32⟩
  | .hbm, ⟨9, _⟩ => ⟨S_, .f32⟩
  | .hbm, ⟨10, _⟩ => ⟨S32x1024, .f32⟩
  | .hbm, ⟨11, _⟩ => ⟨S32x1024x1, .f32⟩
  | .hbm, ⟨12, _⟩ => ⟨S32x64x1024, .f32⟩
  | .hbm, ⟨13, _⟩ => ⟨S_, .f32⟩
  | .hbm, ⟨14, _⟩ => ⟨S32x64, .f32⟩
  | .hbm, ⟨15, _⟩ => ⟨S32x1x64, .f32⟩
  | .hbm, ⟨16, _⟩ => ⟨S32x1024x64, .f32⟩
  | .hbm, ⟨17, _⟩ => ⟨S_, .f32⟩
  | .hbm, ⟨18, _⟩ => ⟨S32x1024x64, .f32⟩
  | .hbm, ⟨19, _⟩ => ⟨S32x1024x64, .f32⟩
  | .hbm, ⟨20, _⟩ => ⟨S32x1024x64, .f32⟩
  | .hbm, ⟨21, _⟩ => ⟨S32x1024x64, .f32⟩
  | .hbm, ⟨22, _⟩ => ⟨S32x1024x64, .f32⟩
  | .hbm, ⟨23, _⟩ => ⟨S32x1024x64, .f32⟩
  | .hbm, ⟨24, _⟩ => ⟨S32x1024x64, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S32x512x1024_S32x64x8x1024 : S32x512x1024.ShapeCasts S32x64x8x1024
  reducesTo_S32x64x8x1024_S32x64x1024_d2 : S32x64x8x1024.ReducesTo [2] S32x64x1024
  h_S_ : 0 < S_.numel
  bcast_S_S32x64x1024 : S_.BroadcastsInDim S32x64x1024 (![] : Fin 0 → Fin S32x64x1024.rank)
  reducesTo_S32x1024x1024_S32x1024_d2 : S32x1024x1024.ReducesTo [2] S32x1024
  bcast_S32x1024_S32x1024x1_0_1 : S32x1024.BroadcastsInDim S32x1024x1 (![0, 1] : Fin 2 → Fin S32x1024x1.rank)
  reducesTo_S32x64x1024_S32x64_d2 : S32x64x1024.ReducesTo [2] S32x64
  bcast_S32x64_S32x1x64_0_2 : S32x64.BroadcastsInDim S32x1x64 (![0, 2] : Fin 2 → Fin S32x1x64.rank)
  bcast_S_S32x1024x64 : S_.BroadcastsInDim S32x1024x64 (![] : Fin 0 → Fin S32x1024x64.rank)
  bcast_S32x1024x1_S32x1024x64_0_1_2 : S32x1024x1.BroadcastsInDim S32x1024x64 (![0, 1, 2] : Fin 3 → Fin S32x1024x64.rank)
  bcast_S32x1x64_S32x1024x64_0_1_2 : S32x1x64.BroadcastsInDim S32x1024x64 (![0, 1, 2] : Fin 3 → Fin S32x1024x64.rank)
  dot_S32x1024x1024_S32x64x1024_S32x1024x64_2_2_1_1_0_0_wf : DotDims.WF S32x1024x1024 S32x64x1024 S32x1024x64 [2] [2] [1] [1] [0] [0]

variable [Facts₀]

def dot_S32x1024x1024_S32x64x1024_S32x1024x64_2_2_1_1_0_0 : DotDims S32x1024x1024 S32x64x1024 S32x1024x64 where
  lhsContracting := [2]
  rhsContracting := [2]
  lhsNonContracting := [1]
  rhsNonContracting := [1]
  lhsBatch := [0]
  rhsBatch := [0]
  wf := dot_S32x1024x1024_S32x64x1024_S32x1024x64_2_2_1_1_0_0_wf

class Facts : Prop extends Facts₀ where

variable [Facts]
-- ==== Proof.Arith.lean ====
/-
  The arithmetic of one output entry, with no program in sight.

  For a query row `q` and a prototype row `p` (both indexed by the channel), the kernel stores
  `2·⟨q,p⟩ − ⟨q,q⟩ − ⟨p,p⟩` and the reference `−((⟨q,q⟩ − 2·⟨q,p⟩) + ⟨p,p⟩)`: minus the squared Euclidean
  distance, expanded. On the extended reals a sign does not pass through a sum when the sum meets both
  infinities, so the two agree only where `⟨q,q⟩` and `⟨p,p⟩` are real numbers (`neg_sub_add`); the cross
  term may be anything. A prototype row is the mean of eight support rows, a sum divided by the word `8.0`;
  it is real when the support rows are (`isReal_mean8`). `dist` is the whole result as one function of the
  two argument arrays.
-/
import Idealize.ShloMosaic.PureOps.Ideal
import Idealize.ShloMosaic.Lib.ValueIdx

noncomputable section

namespace Cert.SqDist

open Idealize.ShloMosaic Idealize.ShloMosaic.ValueIdx

/-! ## The two words both programs spell -/

/-- `8.0`, the number of shots a prototype averages. -/
abbrev eight : EReal := Ideal.ofBits .f32 0x41000000#32
/-- `2.0`, the factor of the cross term. -/
abbrev two : EReal := Ideal.ofBits .f32 0x40000000#32

/-- The word `8.0` denotes the real number 8. -/
theorem eight_eq : eight = ((8 : ℝ) : EReal) := by
  show Ideal.ofBits .f32 0x41000000#32 = _
  simp [Ideal.ofBits, Ideal.ieee, -EReal.coe_mul]; norm_num

/-! ## Extended reals that are real numbers -/

/-- `x` is a real number (neither infinity). -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- Dividing a real number by the word `8.0` gives a real number: the quotient is the product with 1/8. -/
theorem IsReal.div_eight {x : EReal} (hx : IsReal x) : IsReal (Ideal.div x eight) := by
  rw [eight_eq, Ideal.div_coe (by norm_num : (8 : ℝ) ≠ 0)]
  exact hx.mul ⟨_, rfl⟩

/-! ## The law that joins the two sides -/

/-- For real `a`, `c` and ANY extended real `y`: `−((a − y) + c) = (y − a) − c`. At `y = ±∞` both sides are
    that infinity; at a real `y` it is arithmetic in ℝ. -/
theorem neg_sub_add (a c : ℝ) (y : EReal) :
    -(((a : EReal) - y) + (c : EReal)) = y - (a : EReal) - (c : EReal) := by
  induction y using EReal.rec with
  | bot => simp
  | top => simp
  | coe r =>
    rw [← EReal.coe_sub, ← EReal.coe_add, ← EReal.coe_neg, ← EReal.coe_sub, ← EReal.coe_sub]
    congr 1; ring

section forms
variable {ι : Type} [Fintype ι]

/-- The kernel's arrangement: `2·⟨q,p⟩ − ⟨q,q⟩ − ⟨p,p⟩`. -/
def kerForm (q p : ι → EReal) : EReal :=
  two * (∑ k, q k * p k) - (∑ k, q k * q k) - (∑ k, p k * p k)

/-- The reference's arrangement: `−((⟨q,q⟩ − 2·⟨q,p⟩) + ⟨p,p⟩)`. -/
def refForm (q p : ι → EReal) : EReal :=
  -((∑ k, q k * q k) - two * (∑ k, q k * p k) + (∑ k, p k * p k))

/-- On real rows the two arrangements are one number: the two squared norms are real, so the sign passes
    through the sum whatever the cross term is. -/
theorem refForm_eq_kerForm (q p : ι → EReal) (hq : ∀ k, IsReal (q k)) (hp : ∀ k, IsReal (p k)) :
    refForm q p = kerForm q p := by
  obtain ⟨a, ha⟩ := IsReal.sum Finset.univ (fun k => q k * q k) (fun k _ => (hq k).mul (hq k))
  obtain ⟨c, hc⟩ := IsReal.sum Finset.univ (fun k => p k * p k) (fun k _ => (hp k).mul (hp k))
  unfold refForm kerForm
  rw [ha, hc]
  exact neg_sub_add a c _

end forms

/-! ## The mean over the eight shots -/

/-- The mean of eight values as both programs take it: their sum divided by the word `8.0`. -/
def mean8 (s : Fin 8 → EReal) : EReal := Ideal.div (∑ j : Fin 8, s j) eight

theorem isReal_mean8 (s : Fin 8 → EReal) (hs : ∀ j, IsReal (s j)) : IsReal (mean8 s) :=
  (IsReal.sum _ _ fun j _ => hs j).div_eight

/-! ## The result as one function of the argument arrays -/

/-- Support row `8·w + j`: shot `j` of class `w`. -/
abbrev shotRow (w : Fin 64) (j : Fin 8) : Fin 512 :=
  ⟨8 * w.val + j.val, by have := w.isLt; have := j.isLt; omega⟩

/-- The prototype of class `w` in batch `b` at channel `k`: the mean of the class's eight support rows. -/
def proto (S : (⟨3, ![32, 512, 1024]⟩ : Shape).Idx → EReal) (b : Fin 32) (w : Fin 64) (k : Fin 1024) : EReal :=
  mean8 fun j => S (ix3 b (shotRow w j) k)

/-- The result at batch `b`, query `r`, class `w`, in the kernel's arrangement. -/
def distAt (Q : (⟨3, ![32, 1024, 1024]⟩ : Shape).Idx → EReal) (S : (⟨3, ![32, 512, 1024]⟩ : Shape).Idx → EReal)
    (b : Fin 32) (r : Fin 1024) (w : Fin 64) : EReal :=
  kerForm (fun k : Fin 1024 => Q (ix3 b r k)) (fun k : Fin 1024 => proto S b w k)

/-- The whole result array. -/
def dist (Q : (⟨3, ![32, 1024, 1024]⟩ : Shape).Idx → EReal) (S : (⟨3, ![32, 512, 1024]⟩ : Shape).Idx → EReal) :
    (⟨3, ![32, 1024, 64]⟩ : Shape).Idx → EReal :=
  fun i => distAt Q S (i 0) (i 1) (i 2)

end Cert.SqDist

end
-- ==== Proof.Layout.lean ====
/-
  Four layout operations read at an index, over literal extents and coordinates.

  A row sum kept as a column: an `[a]` vector cast to `[a, 1]` reads the vector at the row; an `[a, 1]` column
  broadcast to `[a, b]` reads the column at the row, whatever the lane. The support block regrouped by class:
  a `[512, 1024]` matrix cast to `[64, 8, 1024]` reads, at class `w`, shot `j`, channel `k`, row `8·w + j` of the
  matrix, since both are position `(8·w + j)·1024 + k` in row-major order.
-/
import Idealize.ShloMosaic.Lib.Pipeline.Value
import Idealize.ShloMosaic.Lib.ValueIdx
import Idealize.ShloMosaic.Lib.ValueLayout

noncomputable section

namespace Cert.SqDist

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The support block regrouped by class: `[512, 1024]` cast to `[64, 8, 1024]` reads, at `(w, j, k)`, the matrix at
    row `8·w + j`, column `k`. -/
theorem shapeCast_rows_by_class (x : (⟨2, ![512, 1024]⟩ : Shape).Idx → α)
    (h : (⟨2, ![512, 1024]⟩ : Shape).ShapeCasts ⟨3, ![64, 8, 1024]⟩) (w : Fin 64) (j : Fin 8) (k : Fin 1024)
    (r : Fin 512) (hr : r.val = 8 * w.val + j.val) :
    shapeCast ⟨3, ![64, 8, 1024]⟩ x h (ix3 w j k) = x (ix2 r k) :=
  shapeCast_apply x h _ _ (by
    rw [Shape.rowMajor_val_two, Shape.rowMajor_val_three]
    show r.val * 1024 + k.val = (w.val * 8 + j.val) * 1024 + k.val
    rw [hr, Nat.mul_comm 8 w.val])

end Cert.SqDist

end
-- ==== Proof.KernelEntry.lean ====
/-
  The kernel body's stored value, read at one entry.

  The body loads one batch element's query block `x0 : [1, 1024, 1024]` and support block `x1 : [1, 512, 1024]`
  and stores a `[1, 1024, 64]` block. At query row `r` and class `w` the stored value is
  `2·⟨q, p⟩ − ⟨q, q⟩ − ⟨p, p⟩`, where `q` is row `r` of the query block and `p` the mean of the class's eight
  support rows (`kerForm` of Arith): the matrix unit's contraction into a zero accumulator is the plain sum
  over the channel, a change of float format is the identity, each lane reduction is the sum over its axis,
  and the column and row broadcasts read the norms at the row and at the class.
-/
import proofs.«113175_j10075993276528_2_alg».proof.Proof.Gen.KernelIdeal.Skeleton
import proofs.«113175_j10075993276528_2_alg».proof.Proof.Arith
import proofs.«113175_j10075993276528_2_alg».proof.Proof.Layout
import Idealize.ShloMosaic.PureOps.Ideal.Laws
import Idealize.ShloMosaic.Lib.ValueIdx
import Idealize.ShloMosaic.Lib.ValueLayout
import Idealize.ShloMosaic.Lib.Pipeline.Value

noncomputable section

namespace Cert.SqDist

open Idealize.ShloMosaic Idealize.ShloMosaic.ValueIdx Cert.KernelIdeal Cert.KernelIdeal.Gen

/-! ## The three lane reductions, each the sum over its axis -/

/-- A `[1024, 1024]` matrix summed along its rows: entry `r` is the sum over the channel of row `r`. -/
theorem sumRows_q (v : FVec Ideal S1024x1024 .f32) (h : S1024x1024.Reduces [1] S1024) (r : Fin 1024) :
    multiReduction .add [1] S1024 v 0x00000000#32 h (.inl rfl) rfl (ix1 r) = ∑ k : Fin 1024, v (ix2 r k) := by
  refine (Ideal.multiReduction_add_single v 0x00000000#32 h (.inl rfl) rfl (ix1 r)).trans ?_
  exact Finset.sum_congr rfl fun k _ => congrArg v (funext fun a => Fin.ext (by
    match a with
    | ⟨0, _⟩ => rfl
    | ⟨1, _⟩ => rfl))

/-- A `[64, 1024]` matrix summed along its rows. -/
theorem sumRows_p (v : FVec Ideal S64x1024 .f32) (h : S64x1024.Reduces [1] S64) (w : Fin 64) :
    multiReduction .add [1] S64 v 0x00000000#32 h (.inl rfl) rfl (ix1 w) = ∑ k : Fin 1024, v (ix2 w k) := by
  refine (Ideal.multiReduction_add_single v 0x00000000#32 h (.inl rfl) rfl (ix1 w)).trans ?_
  exact Finset.sum_congr rfl fun k _ => congrArg v (funext fun a => Fin.ext (by
    match a with
    | ⟨0, _⟩ => rfl
    | ⟨1, _⟩ => rfl))

/-- A `[64, 8, 1024]` array summed over its middle axis: entry `(w, k)` is the sum over the eight shots. -/
theorem sumShots (v : FVec Ideal S64x8x1024 .f32) (h : S64x8x1024.Reduces [1] S64x1024) (w : Fin 64) (k : Fin 1024) :
    multiReduction .add [1] S64x1024 v 0x00000000#32 h (.inl rfl) rfl (ix2 w k) = ∑ j : Fin 8, v (ix3 w j k) := by
  refine (Ideal.multiReduction_add_single v 0x00000000#32 h (.inl rfl) rfl (ix2 w k)).trans ?_
  exact Finset.sum_congr rfl fun j _ => congrArg v (funext fun a => Fin.ext (by
    match a with
    | ⟨0, _⟩ => rfl
    | ⟨1, _⟩ => rfl
    | ⟨2, _⟩ => rfl))

/-! ## The contraction -/

/-- The body's matrix product: the queries against the prototypes, both contracted along the channel. -/
abbrev qpDims : DotDims S1024x1024 S64x1024 S1024x64 := dot_S1024x1024_S64x1024_S1024x64_1_1_0_0_n_n

theorem qp_lhs0 (i : S1024x64.Idx) (c : qpDims.contr.Idx) : (qpDims.lhsIdx i c 0).val = (i 0).val := by
  unfold DotDims.lhsIdx
  rw [dif_neg (show ¬(0 : Fin S1024x1024.rank) ∈ qpDims.lhsBatch by decide),
    dif_pos (show (0 : Fin S1024x1024.rank) ∈ qpDims.lhsNonContracting by decide)]
  rfl

theorem qp_rhs0 (i : S1024x64.Idx) (c : qpDims.contr.Idx) : (qpDims.rhsIdx i c 0).val = (i 1).val := by
  unfold DotDims.rhsIdx
  rw [dif_neg (show ¬(0 : Fin S64x1024.rank) ∈ qpDims.rhsBatch by decide),
    dif_pos (show (0 : Fin S64x1024.rank) ∈ qpDims.rhsNonContracting by decide)]
  rfl

/-- Into the zero accumulator, at row `r` and class `w`: the sum over the channel of the products of row `r` of
    the left operand and row `w` of the right one. -/
theorem qp_apply (l : FVec Ideal S1024x1024 .bf16) (p : FVec Ideal S64x1024 .bf16) (r : Fin 1024) (w : Fin 64) :
    matmul qpDims none l p (constant S1024x64 .f32 0x00000000#32) (ix2 r w) = ∑ k : Fin 1024, l (ix2 r k) * p (ix2 w k) := by
  simp only [matmul]
  rw [Ideal.matmul_constant_zero_apply, ← Equiv.sum_comp (contrEquiv1 qpDims 1024 rfl rfl).symm]
  refine Finset.sum_congr rfl fun k _ => ?_
  have hk := contrEquiv1_symm_val qpDims 1024 rfl rfl k
  have el : qpDims.lhsIdx (ix2 r w) ((contrEquiv1 qpDims 1024 rfl rfl).symm k) = ix2 r k := funext fun a => Fin.ext (by
    match a with
    | ⟨0, _⟩ => exact qp_lhs0 _ _
    | ⟨1, _⟩ => exact (qpDims.lhsIdx_val_of_single rfl _ _).trans hk)
  have er : qpDims.rhsIdx (ix2 r w) ((contrEquiv1 qpDims 1024 rfl rfl).symm k) = ix2 w k := funext fun a => Fin.ext (by
    match a with
    | ⟨0, _⟩ => exact qp_rhs0 _ _
    | ⟨1, _⟩ => exact (qpDims.rhsIdx_val_of_single rfl _ _).trans hk)
  rw [el, er]

/-! ## The prototypes of the block -/

/-- The body's sum over the shots divided by a splat `e`, at class `w` and channel `k`: the sum of the class's
    eight rows of the block, divided by `e` (with `e` the word `8.0`, `mean8` of those rows). -/
theorem blockProto_apply (x1 : Vec Ideal S1x512x1024 .f32) (h1 : S1x512x1024.ShapeCasts S512x1024)
    (h2 : S512x1024.ShapeCasts S64x8x1024) (h3 : S64x8x1024.Reduces [1] S64x1024) (e : Ideal .f32) (w : Fin 64) (k : Fin 1024) :
    divf (multiReduction .add [1] S64x1024 (shapeCast S64x8x1024 (shapeCast S512x1024 x1 h1) h2) 0x00000000#32 h3 (.inl rfl) rfl)
        (broadcast S64x1024 e) (ix2 w k)
      = Ideal.div (∑ j : Fin 8, x1 (ix3 (0 : Fin 1) (shotRow w j) k)) e := by
  refine (divf_apply _ _ _).trans ?_
  refine congrArg (Ideal.div · e) ?_
  refine (sumShots _ h3 w k).trans (Finset.sum_congr rfl fun j _ => ?_)
  refine (shapeCast_rows_by_class _ h2 w j k (shotRow w j) rfl).trans ?_
  exact shapeCast_1ab_ab_apply x1 h1 (shotRow w j) k

/-! ## The two squared norms, as the body broadcasts them -/

/-- The squared norms of the rows of `v`, kept as a column and broadcast along the classes: at `(r, w)` the sum
    over the channel of the squares of row `r`. -/
theorem qnorm_apply (v : FVec Ideal S1024x1024 .f32) (h1 : S1024x1024.Reduces [1] S1024) (h2 : S1024.ShapeCasts S1024x1)
    (h3 : S1024x1.Broadcasts S1024x64) (r : Fin 1024) (w : Fin 64) :
    broadcastTo S1024x64 (shapeCast S1024x1 (multiReduction .add [1] S1024 (mulf v v) 0x00000000#32 h1 (.inl rfl) rfl) h2) h3 (ix2 r w)
      = ∑ k : Fin 1024, v (ix2 r k) * v (ix2 r k) := by
  refine (broadcastTo_a1_ab_apply _ h3 r w).trans ?_
  refine (shapeCast_a_a1_apply _ h2 r 0).trans ?_
  exact sumRows_q _ h1 r

/-- The squared norms of the rows of `v`, kept as a column, transposed to a row and broadcast along the queries:
    at `(r, w)` the sum over the channel of the squares of row `w`. -/
theorem pnorm_apply (v : FVec Ideal S64x1024 .f32) (h1 : S64x1024.Reduces [1] S64) (h2 : S64.ShapeCasts S64x1)
    (h3 : S64x1.Transposes [1, 0] S1x64) (h4 : S1x64.Broadcasts S1024x64) (r : Fin 1024) (w : Fin 64) :
    broadcastTo S1024x64 (transpose S1x64 [1, 0] (shapeCast S64x1 (multiReduction .add [1] S64 (mulf v v) 0x00000000#32 h1 (.inl rfl) rfl) h2) h3) h4 (ix2 r w)
      = ∑ k : Fin 1024, v (ix2 w k) * v (ix2 w k) := by
  refine (broadcastTo_1b_ab_apply _ h4 r w).trans ?_
  refine (transpose_ix2_apply _ h3 (0 : Fin 1) w).trans ?_
  refine (shapeCast_a_a1_apply _ h2 w 0).trans ?_
  exact sumRows_p _ h1 w

/-! ## The stored value at an entry -/

/-- The body's stored block at unit coordinate `u`, query row `r`, class `w`: `kerForm` of row `r` of the
    query block and the mean of the class's eight support rows. -/
theorem pay_apply (x0 : Vec Ideal S1x1024x1024 .f32) (x1 : Vec Ideal S1x512x1024 .f32) (u : Fin 1) (r : Fin 1024) (w : Fin 64) :
    k0_pay1 (F := Ideal) x0 x1 (ix3 u r w)
      = kerForm (fun k : Fin 1024 => x0 (ix3 (0 : Fin 1) r k))
          (fun k : Fin 1024 => mean8 fun j => x1 (ix3 (0 : Fin 1) (shotRow w j) k)) := by
  unfold k0_pay1
  dsimp only
  refine (shapeCast_ab_1ab_apply _ _ u r w).trans ?_
  rw [subf_apply, subf_apply, mulf_apply, broadcast_apply, qnorm_apply, pnorm_apply, qp_apply]
  unfold kerForm
  simp only [truncf_apply, mulf_apply, shapeCast_1ab_ab_apply]
  have hp := fun k => blockProto_apply x1 shapeCasts_S1x512x1024_S512x1024 shapeCasts_S512x1024_S64x8x1024
    reduces_S64x8x1024_S64x1024 (FloatOps.ofBits (F := Ideal) .f32 0x41000000#32) w k
  simp only [hp]
  rfl

end Cert.SqDist

end
-- ==== Proof.Blocks.lean ====
/-
  From the blocks to the whole result array.

  The grid has one point per batch element. At point `t` each of the three windows sits at block `(t, 0, 0)`, so
  the query block is `Q[t]`, the support block `S[t]` and the stored block lands on `out[t]`: entry `(u, r, w)` of
  what point `t` writes back is `dist Q S` at `(t, r, w)` (the entry read of KernelEntry, with the two loaded
  blocks read back as rows of the arguments). The thirty-two blocks tile the result array — index `i` lies in
  the block of point `i 0` — so after the run the result array is `dist Q S` everywhere.
-/
import proofs.«113175_j10075993276528_2_alg».proof.Proof.Gen.KernelIdeal.Value
import proofs.«113175_j10075993276528_2_alg».proof.Proof.KernelEntry
import Idealize.ShloMosaic.Lib.Pipeline.Value

noncomputable section

namespace Cert.SqDist

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero3 : (![0, 0, 0] : Fin 3 → Nat) = fun _ => 0 := funext fun a => by fin_cases a <;> rfl

/-- Every window's block index at grid point `t` is `(t, 0, 0)`: decided over the thirty-two points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The query block at point `t` is batch element `t` of the query array. -/
theorem qblock_apply (c : Dev nD) (t : Fin cfg0.N) (x : S1x1024x1024.Idx) (k : S32x1024x1024.Idx)
    (hk0 : (k 0).val = t.val) (hk1 : (k 1).val = (x 1).val) (hk2 : (k 2).val = (x 2).val) :
    (iblk m c 0 t : Vec Ideal S1x1024x1024 .f32) x = (m ((c : Thread nD τ).loc main_arg0) : S32x1024x1024.Idx → EReal) k := by
  obtain ⟨e0, e1, e2, -⟩ := idx_facts t
  have hx0 : (x 0).val < 1 := (x 0).isLt
  unfold iblk
  rw [View.read_apply]
  show V m c main_arg0 _ = m (c.tc.loc main_arg0) _
  unfold V
  refine congrArg _ ?_
  funext a
  apply Fin.ext
  match a with
  | ⟨0, _⟩ => show win0_0.index t (0 : Fin 3) * 1 + 1 * (x 0).val = (k 0).val; omega
  | ⟨1, _⟩ => show win0_0.index t (1 : Fin 3) * 1024 + 1 * (x 1).val = (k 1).val; omega
  | ⟨2, _⟩ => show win0_0.index t (2 : Fin 3) * 1024 + 1 * (x 2).val = (k 2).val; omega

/-- The support block at point `t` is batch element `t` of the support array. -/
theorem sblock_apply (c : Dev nD) (t : Fin cfg0.N) (x : S1x512x1024.Idx) (k : S32x512x1024.Idx)
    (hk0 : (k 0).val = t.val) (hk1 : (k 1).val = (x 1).val) (hk2 : (k 2).val = (x 2).val) :
    (iblk m c 1 t : Vec Ideal S1x512x1024 .f32) x = (m ((c : Thread nD τ).loc main_arg1) : S32x512x1024.Idx → EReal) k := by
  obtain ⟨-, -, -, e0, e1, e2, -⟩ := idx_facts t
  have hx0 : (x 0).val < 1 := (x 0).isLt
  unfold iblk
  rw [View.read_apply]
  show V m c main_arg1 _ = m (c.tc.loc main_arg1) _
  unfold V
  refine congrArg _ ?_
  funext a
  apply Fin.ext
  match a with
  | ⟨0, _⟩ => show win0_1.index t (0 : Fin 3) * 1 + 1 * (x 0).val = (k 0).val; omega
  | ⟨1, _⟩ => show win0_1.index t (1 : Fin 3) * 512 + 1 * (x 1).val = (k 1).val; omega
  | ⟨2, _⟩ => show win0_1.index t (2 : Fin 3) * 1024 + 1 * (x 2).val = (k 2).val; omega

/-- One stored entry as an entry of `dist`: if `x0` is batch element `b` of `Q` and `x1` batch element `b` of `S`,
    the body's value at `y` is `dist Q S` at `(b, y 1, y 2)`. -/
theorem entry_eq_dist (Q : S32x1024x1024.Idx → EReal) (S : S32x512x1024.Idx → EReal)
    (x0 : Vec Ideal S1x1024x1024 .f32) (x1 : Vec Ideal S1x512x1024 .f32) (b : Fin 32)
    (h0 : ∀ (r : Fin 1024) (k : Fin 1024), x0 (ix3 (0 : Fin 1) r k) = Q (ix3 b r k))
    (h1 : ∀ (r : Fin 512) (k : Fin 1024), x1 (ix3 (0 : Fin 1) r k) = S (ix3 b r k))
    (y : S1x1024x64.Idx) (i : S32x1024x64.Idx)
    (hi0 : (i 0).val = b.val) (hi1 : (i 1).val = (y 1).val) (hi2 : (i 2).val = (y 2).val) :
    k0_pay1 (F := Ideal) x0 x1 y = dist Q S i := by
  obtain ⟨u, r, w, rfl⟩ : ∃ (u : Fin 1) (r : Fin 1024) (w : Fin 64), y = ix3 u r w := ⟨y 0, y 1, y 2, eq_ix3 y⟩
  obtain ⟨b', r', w', rfl⟩ : ∃ (b' : Fin 32) (r' : Fin 1024) (w' : Fin 64), i = ix3 b' r' w' :=
    ⟨i 0, i 1, i 2, eq_ix3 i⟩
  obtain rfl : b' = b := Fin.ext hi0
  obtain rfl : r' = r := Fin.ext hi1
  obtain rfl : w' = w := Fin.ext hi2
  rw [pay_apply]
  show _ = distAt Q S b' r' w'
  unfold distAt proto
  simp only [h0, h1]

/-- What point `t` writes back is block `t` of `dist` of the two argument arrays. -/
theorem flushed_eq (c : Dev nD) (t : Fin cfg0.N) :
    (dats m 0 c).flushed 2 t = ((cfg0.win 2).blk t).view.read (Elt Ideal)
      (dist (m ((c : Thread nD τ).loc main_arg0)) (m ((c : Thread nD τ).loc main_arg1))) := by
  rw [Cert.KernelIdeal.Value.flushed2]
  unfold out0_2
  rw [View.canon_unit_zero zero3]
  simp only [View.ld_unit_zero (S := S1x1024x1024) zero3, View.ld_unit_zero (S := S1x512x1024) zero3]
  obtain ⟨-, -, -, -, -, -, e0, e1, e2⟩ := idx_facts t
  have hN : grid0.N = 32 := N_0
  have ht : t.val < 32 := lt_of_lt_of_eq t.isLt hN
  funext y
  have hy0 : (y 0).val < 1 := (y 0).isLt
  show k0_pay1 (F := Ideal) (iblk m c 0 t) (iblk m c 1 t) y = dist _ _ (((cfg0.win 2).blk t).view.emb y)
  refine entry_eq_dist _ _ (iblk m c 0 t) (iblk m c 1 t) ⟨t.val, ht⟩
    (fun r k => qblock_apply m c t _ _ rfl rfl rfl) (fun r k => sblock_apply m c t _ _ rfl rfl rfl) y _ ?_ ?_ ?_
  · show win0_2.index t (0 : Fin 3) * 1 + 1 * (y 0).val = t.val; omega
  · show win0_2.index t (1 : Fin 3) * 1024 + 1 * (y 1).val = (y 1).val; omega
  · show win0_2.index t (2 : Fin 3) * 64 + 1 * (y 2).val = (y 2).val; omega

/-- An index of the result array is in point `t`'s block iff each coordinate is in the block's range on its axis. -/
theorem mem_blk (t : Fin cfg0.N) (i : S32x1024x64.Idx) :
    i ∈ ((cfg0.win 2).blk t).view.set ↔ ∀ a : Fin 3, win0_2.index t a * S1x1024x64.size a ≤ (i a).val
      ∧ (i a).val < win0_2.index t a * S1x1024x64.size a + S1x1024x64.size a := by
  show i ∈ ((View.whole main_v0).slice (win0_2.rect t)).set ↔ _
  rw [View.set_slice_whole, Rect.mem_set_unit]
  exact Iff.rfl

/-- Every index of the result array is in the block of the point its batch coordinate names. -/
theorem covered (i : S32x1024x64.Idx) :
    ∃ t : Fin cfg0.N, (cfg0.win 2).flush t = true ∧ i ∈ ((cfg0.win 2).blk t).view.set := by
  have hN : grid0.N = 32 := N_0
  have hi0 : (i 0).val < 32 := (i 0).isLt
  have hi1 : (i 1).val < 1024 := (i 1).isLt
  have hi2 : (i 2).val < 64 := (i 2).isLt
  obtain ⟨t, ht⟩ : ∃ t : Fin cfg0.N, t.val = (i 0).val := ⟨⟨(i 0).val, lt_of_lt_of_eq hi0 hN.symm⟩, rfl⟩
  obtain ⟨-, -, -, -, -, -, e0, e1, e2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- After the run the result array is `dist` of the two argument arrays. -/
theorem final (c : Dev nD) : (dats m 0 c).arrAt 2 cfg0.N
    = dist (m ((c : Thread nD τ).loc main_arg0)) (m ((c : Thread nD τ).loc main_arg1)) :=
  (dats m 0 c).arrAt_eq_of_cover 2 _ (fun t _ => flushed_eq m c t) covered

/-- The kernel's run, read: every weakly fair execution ends with the result array at `dist` of the arguments and
    the arguments unchanged. -/
theorem run : θ_run defs (onTc (τ := τ) (main (F := Ideal))) ⟨m, fun _ => 0, ρ⟩ fun r => ∀ c : Dev nD,
      r.2.mem ((c : Thread nD τ).loc main_v0)
        = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.SqDist

end
-- ==== Proof.RefEntry.lean ====
/-
  The reference's result, read at one entry.

  At batch `b`, query `r`, class `w` the reference returns `−((⟨q,q⟩ − 2·⟨q,p⟩) + ⟨p,p⟩)` (`refForm` of Arith) of
  row `r` of the query array and of the prototype of class `w`: its reshape of the support array to
  `[32, 64, 8, 1024]` puts shot `j` of class `w` at support row `8·w + j` (both are row-major position
  `((64·b + w)·8 + j)·1024 + k`), each of its three sums starts from the word `0.0`, its batched contraction
  pairs the channel of the query row with the channel of the prototype row, and the two keepdims broadcasts
  read the norms at `(b, r)` and at `(b, w)`.
-/
import proofs.«113175_j10075993276528_2_alg».proof.Proof.Gen.ReferenceIdeal.Read
import proofs.«113175_j10075993276528_2_alg».proof.Proof.Arith
import Idealize.ShloMosaic.PureOps.Ideal.Laws
import Idealize.ShloMosaic.Lib.ValueIdx

noncomputable section

namespace Cert.SqDist

open Idealize.ShloMosaic Idealize.ShloMosaic.ValueIdx Cert.ReferenceIdeal Cert.ReferenceIdeal.Read

/-! ## Where each stage reads its operand -/

/-- Shot `j` of class `w`, batch `b`, channel `k` of the reshaped support array is support row `8·w + j`. -/
theorem idx_shot (b : Fin 32) (w : Fin 64) (j : Fin 8) (k : Fin 1024) :
    idx_main_v0 (idx_main_v1 (ix3 b w k) j) = ix3 b (shotRow w j) k := by
  have hb := b.isLt; have hw := w.isLt; have hj := j.isLt; have hk := k.isLt
  funext a; apply Fin.ext
  match a with
  | ⟨0, _⟩ => show (((b.val * 64 + w.val) * 8 + j.val) * 1024 + k.val) / 524288 = b.val; omega
  | ⟨1, _⟩ => show (((b.val * 64 + w.val) * 8 + j.val) * 1024 + k.val) / 1024 % 512 = 8 * w.val + j.val; omega
  | ⟨2, _⟩ => show (((b.val * 64 + w.val) * 8 + j.val) * 1024 + k.val) % 1024 = k.val; omega

/-- The query norm at `(b, r, w)` sums row `(b, r)` of the squared query array. -/
theorem idx_qnorm (b : Fin 32) (r : Fin 1024) (w : Fin 64) (k : Fin 1024) :
    idx_main_v5 (idx_main_v6 (idx_main_v13 (ix3 b r w))) k = ix3 b r k :=
  funext fun a => Fin.ext (by match a with | ⟨0, _⟩ => rfl | ⟨1, _⟩ => rfl | ⟨2, _⟩ => rfl)

/-- The prototype norm at `(b, r, w)` sums row `(b, w)` of the squared prototypes. -/
theorem idx_pnorm (b : Fin 32) (r : Fin 1024) (w : Fin 64) (k : Fin 1024) :
    idx_main_v8 (idx_main_v9 (idx_main_v15 (ix3 b r w))) k = ix3 b w k :=
  funext fun a => Fin.ext (by match a with | ⟨0, _⟩ => rfl | ⟨1, _⟩ => rfl | ⟨2, _⟩ => rfl)

/-- The contraction at `(b, r, w)` pairs query row `(b, r)` … -/
theorem idx_lhs (b : Fin 32) (r : Fin 1024) (w : Fin 64) (k : Fin 1024) :
    lidx_main_v10 (ix3 b r w) k = ix3 b r k :=
  funext fun a => Fin.ext (by match a with | ⟨0, _⟩ => rfl | ⟨1, _⟩ => rfl | ⟨2, _⟩ => rfl)

/-- … with prototype row `(b, w)`, channel by channel. -/
theorem idx_rhs (b : Fin 32) (r : Fin 1024) (w : Fin 64) (k : Fin 1024) :
    ridx_main_v10 (ix3 b r w) k = ix3 b w k :=
  funext fun a => Fin.ext (by match a with | ⟨0, _⟩ => rfl | ⟨1, _⟩ => rfl | ⟨2, _⟩ => rfl)

/-! ## The prototypes -/

/-- The reference's mean over the shots is `proto`. -/
theorem ref_proto (S : (⟨S32x512x1024, .f32⟩ : BufTy).Contents (Elt Ideal)) (b : Fin 32) (w : Fin 64) (k : Fin 1024) :
    val_main_v3 (F := Ideal) S (ix3 b w k) = proto S b w k := by
  rw [val_main_v3_apply, val_main_v1_apply, val_main_v2_apply, val_main_cst_0_apply, val_main_cst_apply]
  simp only [val_main_v0_apply, idx_shot]
  unfold proto mean8
  simp only [Ideal.hostDivf_def, Ideal.ofBits_def, Ideal.ofBits_zero_f32, zero_add]

/-! ## The result -/

/-- The reference's result at `(b, r, w)` is `refForm` of query row `(b, r)` and prototype `(b, w)`. -/
theorem ref_apply (Q : (⟨S32x1024x1024, .f32⟩ : BufTy).Contents (Elt Ideal)) (S : (⟨S32x512x1024, .f32⟩ : BufTy).Contents (Elt Ideal))
    (b : Fin 32) (r : Fin 1024) (w : Fin 64) :
    val_main_v17 (F := Ideal) Q S (ix3 b r w)
      = refForm (fun k : Fin 1024 => Q (ix3 b r k)) (fun k : Fin 1024 => proto S b w k) := by
  rw [val_main_v17_apply, val_main_v16_apply, val_main_v14_apply, val_main_v15_apply, val_main_v9_apply, val_main_v8_apply,
    val_main_v13_apply, val_main_v6_apply, val_main_v5_apply, val_main_v12_apply, val_main_v11_apply, val_main_v10_apply,
    val_main_cst_1_apply, val_main_cst_2_apply, val_main_cst_3_apply]
  simp only [val_main_v7_apply, val_main_v4_apply, idx_qnorm, idx_pnorm, idx_lhs, idx_rhs, ref_proto]
  unfold refForm
  simp only [Ideal.hostNegf_def, Ideal.negf_def, Ideal.addf_def, Ideal.subf_def, Ideal.mulf_def, Ideal.ofBits_def,
    Ideal.ofBits_zero_f32, zero_add]

/-- On arguments that hold real numbers only, the reference's whole result is `dist`: entry by entry its
    arrangement and the kernel's are one number, the query row and the prototype row being real. -/
theorem ref_eq_dist (Q : (⟨S32x1024x1024, .f32⟩ : BufTy).Contents (Elt Ideal)) (S : (⟨S32x512x1024, .f32⟩ : BufTy).Contents (Elt Ideal))
    (hQ : ∀ i, IsReal (Q i)) (hS : ∀ i, IsReal (S i)) :
    val_main_v17 (F := Ideal) Q S = dist Q S := by
  funext i
  obtain ⟨b, r, w, rfl⟩ : ∃ (b : Fin 32) (r : Fin 1024) (w : Fin 64), i = ix3 b r w := ⟨i 0, i 1, i 2, eq_ix3 i⟩
  rw [ref_apply]
  exact refForm_eq_kerForm _ _ (fun k => hQ _) (fun k => isReal_mean8 _ fun j => hS _)

end Cert.SqDist

end
-- ==== Proof.Finite.lean ====
/-
  What the precondition gives: every entry of both argument arrays is a real number.

  The precondition is the conjunction of two `all`s, one per argument, of the entrywise test `|x| < +∞`. An
  `and` of two bits is one only if both are; an `all` that is one had a one at every entry; and an extended
  real whose absolute value `max x (−x)` lies strictly below `+∞` is neither infinity.
-/
import proofs.«113175_j10075993276528_2_alg».proof.Pre_finite_inputs
import proofs.«113175_j10075993276528_2_alg».proof.Proof.Arith
import Idealize.ShloMosaic.Lib.ReduceAll
import Idealize.ShloMosaic.Lib.ValueIdx
import Idealize.ShloMosaic.PureOps.Ideal.Laws

noncomputable section

namespace Cert.SqDist

open Idealize.ShloMosaic

/-- The precondition's result has one index. -/
instance : Subsingleton Cert.Pre_finite_inputs.S_.Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real whose absolute value is strictly below `+∞` is a real number. -/
theorem isReal_of_abs_lt (x : EReal) (h : Ideal.cmp .olt (max x (-x)) (Ideal.ofBits .f32 0x7F800000#32) = 1#1) :
    IsReal x := by
  rw [ofBits_inf] at h
  induction x using EReal.rec with
  | bot => simp [Ideal.cmp] at h
  | top => simp [Ideal.cmp] at h
  | coe r => exact ⟨r, rfl⟩

/-- Under the precondition both argument arrays hold real numbers only. -/
theorem real_of_pre [Cert.Pre_finite_inputs.Facts] (Q : FVec Ideal Cert.Pre_finite_inputs.S32x1024x1024 .f32)
    (S : FVec Ideal Cert.Pre_finite_inputs.S32x512x1024 .f32)
    (h : Cert.Pre_finite_inputs.fn (F := Ideal) Q S = fun _ => 1#1) :
    (∀ i, IsReal (Q i)) ∧ (∀ i, IsReal (S i)) := by
  have h0 := congrFun h ValueIdx.ix0
  dsimp only [Cert.Pre_finite_inputs.fn] at h0
  obtain ⟨hq, hs⟩ := IntOp.andi_eq_one.1 h0
  exact ⟨fun i => isReal_of_abs_lt _ (Host.reduce_andi_all _ _ _ _ _ hq i),
    fun i => isReal_of_abs_lt _ (Host.reduce_andi_all _ _ _ _ _ hs i)⟩

end Cert.SqDist

end
-- ==== Proof.lean ====
/-
  Minus the squared Euclidean distance between queries and class prototypes, two ways.

  For each of 32 batch elements the programs take 1024 query rows and 512 support rows of 1024 channels; the
  prototype of class `w` (of 64) is the mean of support rows `8·w … 8·w + 7`, a sum divided by `8.0`. The kernel,
  one grid point per batch element, stores `2·⟨q,p⟩ − ⟨q,q⟩ − ⟨p,p⟩`; the reference returns
  `−((⟨q,q⟩ − 2·⟨q,p⟩) + ⟨p,p⟩)`. At the ideal values a change of float format is the identity and a
  contraction or a reduction is a plain finite sum, so both are functions of the same two rows; they agree
  because under the precondition every entry of both arguments is a real number, hence `⟨q,q⟩` and `⟨p,p⟩` are
  real and the sign passes through the sum (Arith: `neg_sub_add`, `refForm_eq_kerForm`). Without finiteness the
  equation fails (`⟨q,q⟩ = +∞` against a cross term `+∞`), so the precondition is used, once, in `algebraic`.

  The modules: Arith (the law and the result `dist` as one function of the arguments), Layout (four layout
  operations read at an index), KernelEntry (the body's stored value at an entry), Blocks (the 32 blocks tile
  the result array: the kernel's run ends at `dist`), RefEntry (the reference's result at an entry, and that it
  is `dist` on real arguments), Finite (the precondition read back). The three frames are the generated runs;
  the idealization rewrote nothing, so `preserves` is `True`.
-/
import proofs.«113175_j10075993276528_2_alg».proof.Defs
import proofs.«113175_j10075993276528_2_alg».proof.Proof.Gen.Kernel
import proofs.«113175_j10075993276528_2_alg».proof.Proof.Gen.Kernel.Skeleton
import proofs.«113175_j10075993276528_2_alg».proof.Proof.Gen.Kernel.Launch
import proofs.«113175_j10075993276528_2_alg».proof.Proof.Gen.Kernel.Points
import proofs.«113175_j10075993276528_2_alg».proof.Proof.Gen.Kernel.Frame
import proofs.«113175_j10075993276528_2_alg».proof.Proof.Gen.KernelIdeal
import proofs.«113175_j10075993276528_2_alg».proof.Proof.Gen.KernelIdeal.Skeleton
import proofs.«113175_j10075993276528_2_alg».proof.Proof.Gen.KernelIdeal.Launch
import proofs.«113175_j10075993276528_2_alg».proof.Proof.Gen.KernelIdeal.Points
import proofs.«113175_j10075993276528_2_alg».proof.Proof.Gen.KernelIdeal.Frame
import proofs.«113175_j10075993276528_2_alg».proof.Proof.Gen.ReferenceIdeal
import proofs.«113175_j10075993276528_2_alg».proof.Proof.Gen.Pre_finite_inputs
import proofs.«113175_j10075993276528_2_alg».proof.Proof.Gen.KernelIdeal.Value
import proofs.«113175_j10075993276528_2_alg».proof.Proof.Gen.ReferenceIdeal.Run
import proofs.«113175_j10075993276528_2_alg».proof.Proof.Gen.ReferenceIdeal.Read
import Idealize.ShloMosaic.Adequacy
import Idealize.ShloMosaic.Init

import proofs.«113175_j10075993276528_2_alg».proof.Proof.Arith
import proofs.«113175_j10075993276528_2_alg».proof.Proof.Blocks
import proofs.«113175_j10075993276528_2_alg».proof.Proof.RefEntry
import proofs.«113175_j10075993276528_2_alg».proof.Proof.Finite

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both idealized programs end with the result array at `dist` of the
    arguments: the kernel by its blocks, the reference entry by entry, the two arrangements one number on reals. -/
theorem algebraic : Cert.algebraic_KernelIdeal_ReferenceIdeal := by
  intro m ρ m' ρ' hpre hagree
  refine ⟨fun c => Cert.SqDist.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.SqDist.run m ρ, ?_⟩
  refine (θ_run Cert.ReferenceIdeal.defs _ _).mono (fun _ h c => ⟨?_, (h c).2⟩)
    (Cert.ReferenceIdeal.Value.run (F := Ideal) m' ρ')
  obtain ⟨hQ, hS⟩ := Cert.SqDist.real_of_pre _ _ (hpre c)
  rw [(h c).1, Cert.ReferenceIdeal.Read.val_main_v17_eq, (hagree c).1, (hagree c).2]
  exact Cert.SqDist.ref_eq_dist _ _ hQ hS

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
